-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_keep" .f32 0x3FA00000#32 ((16777216 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S100000x256 1) : IVec S_ 1 :=
  let main_c_5 : IVec S_ 1 := constantI S_ 1 1#1
  let main_v17 : IVec S_ 1 := (fun x v => Host.reduce IntOp.andi x v reducesTo_S100000x256_S_d0_1 h_S_) main_v16 main_c_5
  let main_v18 : IVec S_ 1 := andi main_v13 main_v17
  main_v18

def fn {F : FTy → Type} [FloatOps F] (main_arg0 : FVec F S100000x256 .f32) (main_arg1 : FVec F S256x128 .f32) (main_arg2 : IVec S1600000 32) (main_arg3 : IVec S1600000 32) (main_arg4 : FVec F S1600000 .f32) (main_arg5 : FVec F S100000x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S100000x256 .f32 := Host.absf main_arg5
  let main_cst_4 : FVec F S_ .f32 := constant S_ .f32 0x7F800000#32
  let main_v15 : FVec F S100000x256 .f32 := broadcastInDim S100000x256 ![] bcast_S_S100000x256 main_cst_4
  let main_v16 : IVec S100000x256 1 := cmpf .olt main_v14 main_v15
  fn_part1 (F := F) main_v13 main_v16
-- ==== Kernel.lean ====
abbrev S100000x256 : Shape := ⟨2, ![100000, 256]⟩
abbrev S256x128 : Shape := ⟨2, ![256, 128]⟩
abbrev S1600000 : Shape := ⟨1, ![1600000]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 23
  | .vmem => 7
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x256, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S100000x256.size a
  hwx0_1 : ∀ i : grid0.Coords, EltTy.bits .f32 = 32 ∨ (Rect.block (s := S100000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S1600000 : Shape := ⟨1, ![1600000]⟩
abbrev S_ : Shape := ⟨0, ![]⟩
abbrev S100000x128 : Shape := ⟨2, ![100000, 128]⟩
abbrev S1600000x1 : Shape := ⟨2, ![1600000, 1]⟩
abbrev S1600000x128 : Shape := ⟨2, ![1600000, 128]⟩

abbrev nBuf : Space → Nat
  | .hbm => 33
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x256, .f32⟩
  | .hbm, ⟨6, _⟩ => ⟨S_, .f32⟩
  | .hbm, ⟨7, _⟩ => ⟨S100000x256, .f32⟩
  | .hbm, ⟨8, _⟩ => ⟨S100000x256, .i1⟩
  | .hbm, ⟨9, _⟩ => ⟨S_, .f32⟩
  | .hbm, ⟨10, _⟩ => ⟨S100000x256, .f32⟩
  | .hbm, ⟨11, _⟩ => ⟨S100000x256, .f32⟩
  | .hbm, ⟨12, _⟩ => ⟨S_, .f32⟩
  | .hbm, ⟨13, _⟩ => ⟨S_, .f32⟩
  | .hbm, ⟨14, _⟩ => ⟨S100000x256, .f32⟩
  | .hbm, ⟨15, _⟩ => ⟨S100000x256, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x1, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Support.lean ====
/-
  The specification both programs meet before their common sparse tail: the dense projection of the dropped-out input.

  With x the input [100000, 256], u the dropout draws [100000, 256] and w the weight [256, 128], entry (r, c) of the
  projection is the sum over k of kept (u r k) (x r k) · w k c, where kept u x is x · (2^24 / 13421773) when u exceeds
  the threshold word (the f32 nearest 1/5) and the zero word otherwise. A row of the result depends on the same row of x
  and u only, so the row blocks a tiled computation produces are restrictions of this one function.
-/
import Idealize.ShloMosaic.PureOps.Ideal
import Idealize.ShloMosaic.Lib.ValueIdx

noncomputable section

namespace Cert.Support

open Idealize.ShloMosaic Idealize.ShloMosaic.ValueIdx

/-- One entry after dropout: the entry rescaled where its draw exceeds the threshold, zero elsewhere. -/
def kept (u x : EReal) : EReal :=
  Scalar.select (FloatOps.cmpf (F := Ideal) (φ := .f32) .ogt u (Ideal.ofBits .f32 0x3E4CCCCD#32))
    (x * ((16777216 / 13421773 : ℝ) : EReal)) (Ideal.ofBits .f32 0x00000000#32)

/-- The projection of the dropped-out input onto the weight's columns, entry by entry. -/
def support (x u : (⟨2, ![100000, 256]⟩ : Shape).Idx → EReal) (w : (⟨2, ![256, 128]⟩ : Shape).Idx → EReal) :
    (⟨2, ![100000, 128]⟩ : Shape).Idx → EReal :=
  fun i => ∑ k : Fin 256, kept (u (ix2 (i 0) k)) (x (ix2 (i 0) k)) * w (ix2 k (i 1))

/-- The projection at row r, column c. -/
theorem support_apply (x u : (⟨2, ![100000, 256]⟩ : Shape).Idx → EReal) (w : (⟨2, ![256, 128]⟩ : Shape).Idx → EReal)
    (r : Fin 100000) (c : Fin 128) :
    support x u w (ix2 r c) = ∑ k : Fin 256, kept (u (ix2 r k)) (x (ix2 r k)) * w (ix2 k c) := rfl

end Cert.Support

end
-- ==== Proof.BlockProduct.lean ====
/-
  What the kernel body stores for one row block, entry by entry.

  The body reads a [5000, 256] block of the draws u, the same block of the input x and the whole weight w, and stores
  one [5000, 128] product. Entry (p, q) of it is the sum over k of kept (u p k) (x p k) · w k q: the comparison, the
  rescaling by the named reciprocal and the fill with zero act entry by entry, the two roundings to a narrower float
  format are the identity on extended reals, and the product into a zero accumulator is the plain sum over the one
  contracted axis.
-/
import proofs.«150217_j31301721653273_1_alg».proof.Proof.Gen.KernelIdeal.Skeleton
import proofs.«150217_j31301721653273_1_alg».proof.Proof.Support
import Idealize.ShloMosaic.Lib.ValueIdx
import Idealize.ShloMosaic.PureOps.Ideal.Laws
import Idealize.ShloMosaic.PureOps.IdealRules

noncomputable section

namespace Cert.KernelIdeal.Block

open Cert.KernelIdeal Cert.KernelIdeal.Gen Idealize.ShloMosaic Idealize.ShloMosaic.ValueIdx Cert.Support

/-- The kernel's rescaling constant denotes the rational 2^24 / 13421773, by the certificate's table. -/
theorem inv_keep :
    Named.named (F := Ideal) Cert.KernelIdeal.κ "inv_keep" (φ := .f32) 0x3FA00000#32 = ((16777216 / 13421773 : ℝ) : EReal) :=
  IdealRules.named_const.ideal_named_scalar _ _ _ _ rfl

/-- The left operand's row is the output's row. -/
theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

/-- The left operand's column is the contraction position. -/
theorem lhs_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q

/-- The right operand's row is the contraction position. -/
theorem rhs_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q

/-- The right operand's column is the output's column. -/
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- Entry (p, q) of the stored block: the dropped-out row p of the loaded blocks against column q of the weight. -/
theorem pay_apply (u x : FVec Ideal S5000x256 .f32) (w : FVec Ideal S256x128 .f32) (p : Fin 5000) (q : Fin 128) :
    k0_pay1 (F := Ideal) u x w (ix2 p q) = ∑ k : Fin 256, kept (u (ix2 p k)) (x (ix2 p k)) * w (ix2 k q) := by
  unfold k0_pay1
  simp only [matmul]
  rw [Ideal.matmul_constant_zero_apply,
    ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q)
      ((ValueIdx.contrEquiv1 dot_S5000x256_S256x128_S5000x128_1_0_0_1_n_n 256 rfl rfl).symm k) = ix2 p k :=
    funext fun a => Fin.ext (by
      match a with
      | ⟨0, _⟩ => exact lhs_row _ _
      | ⟨1, _⟩ => exact (lhs_col _ _).trans hk)
  have er : dot_S5000x256_S256x128_S5000x128_1_0_0_1_n_n.rhsIdx (ix2 p q)
      ((ValueIdx.contrEquiv1 dot_S5000x256_S256x128_S5000x128_1_0_0_1_n_n 256 rfl rfl).symm k) = ix2 k q :=
    funext fun a => Fin.ext (by
      match a with
      | ⟨0, _⟩ => exact (rhs_row _ _).trans hk
      | ⟨1, _⟩ => exact rhs_col _ _)
  rw [el, er]
  simp only [truncf_apply, select_apply, cmpf_apply, mulf_apply, broadcast_apply, inv_keep]
  rfl

end Cert.KernelIdeal.Block

end
-- ==== Proof.RowBlocks.lean ====
/-
  From the row blocks the grid points write back to the whole projection.

  Grid point t (of 20) stages rows 5000·t … 5000·t + 4999 of the input and of the draws, the whole weight, and writes
  back the same rows of the result. Each stored block is therefore the restriction to those rows of the one function
  support x u w (a row of the projection depends on that row of x and u only), and the 20 blocks tile the 100000 rows:
  row r lies in the block of point r / 5000. So the result array after the region is support x u w.
-/
import proofs.«150217_j31301721653273_1_alg».proof.Proof.Gen.KernelIdeal.Frame
import proofs.«150217_j31301721653273_1_alg».proof.Proof.BlockProduct
import Idealize.ShloMosaic.Lib.Pipeline.Value

noncomputable section

namespace Cert.KernelIdeal.Rows

open Cert.KernelIdeal Cert.KernelIdeal.Gen Cert.KernelIdeal.Block Cert.Support
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the three moving windows sit at block row t, block column 0; the weight's
    window stays at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t is rows 5000·t … of the input. -/
theorem input_block (c : Dev nD) (t : Fin cfg0.N) (y : S5000x256.Idx) (z : S100000x256.Idx)
    (h0 : (z 0).val = t.val * 5000 + (y 0).val) (h1 : (z 1).val = (y 1).val) :
    (iblk m c 0 t : Vec Ideal S5000x256 .f32) y = (V m c main_arg0 : S100000x256.Idx → EReal) z := by
  obtain ⟨e0, e1, -, -, -, -, -, -⟩ := index_facts t
  unfold iblk
  rw [View.read_apply]
  show V m c main_arg0 _ = V m c main_arg0 _
  congr 1
  funext a
  apply Fin.ext
  match a with
  | ⟨0, _⟩ => show win0_0.index t (0 : Fin 2) * 5000 + 1 * (y 0).val = (z 0).val; rw [e0, h0]; omega
  | ⟨1, _⟩ => show win0_0.index t (1 : Fin 2) * 256 + 1 * (y 1).val = (z 1).val; rw [e1, h1]; omega

/-- The draws' block at point t is the same rows of the draws. -/
theorem draws_block (c : Dev nD) (t : Fin cfg0.N) (y : S5000x256.Idx) (z : S100000x256.Idx)
    (h0 : (z 0).val = t.val * 5000 + (y 0).val) (h1 : (z 1).val = (y 1).val) :
    (iblk m c 1 t : Vec Ideal S5000x256 .f32) y = (V m c main_arg5 : S100000x256.Idx → EReal) z := by
  obtain ⟨-, -, e0, e1, -, -, -, -⟩ := index_facts t
  unfold iblk
  rw [View.read_apply]
  show V m c main_arg5 _ = V m c main_arg5 _
  congr 1
  funext a
  apply Fin.ext
  match a with
  | ⟨0, _⟩ => show win0_1.index t (0 : Fin 2) * 5000 + 1 * (y 0).val = (z 0).val; rw [e0, h0]; omega
  | ⟨1, _⟩ => show win0_1.index t (1 : Fin 2) * 256 + 1 * (y 1).val = (z 1).val; rw [e1, h1]; omega

/-- The weight's block at every point is the whole weight. -/
theorem weight_block (c : Dev nD) (t : Fin cfg0.N) (y : S256x128.Idx) :
    (iblk m c 2 t : Vec Ideal S256x128 .f32) y = (V m c main_arg1 : S256x128.Idx → EReal) y := by
  obtain ⟨-, -, -, -, e0, e1, -, -⟩ := index_facts t
  unfold iblk
  rw [View.read_apply]
  show V m c main_arg1 _ = V m c main_arg1 _
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 128 + 1 * (y 1).val = (y 1).val; rw [e1]; omega

/-- A stored block, entry by entry, is the projection at the block's rows: stated over arbitrary loaded blocks that are
    rows b·5000 … of the arrays X, U and the whole of W. -/
theorem block_entry (X U : (⟨2, ![100000, 256]⟩ : Shape).Idx → EReal) (W : (⟨2, ![256, 128]⟩ : Shape).Idx → EReal)
    (u x : FVec Ideal S5000x256 .f32) (w : FVec Ideal S256x128 .f32) (b : Nat)
    (hx : ∀ (y : S5000x256.Idx) (z : S100000x256.Idx), (z 0).val = b * 5000 + (y 0).val → (z 1).val = (y 1).val → x y = X z)
    (hu : ∀ (y : S5000x256.Idx) (z : S100000x256.Idx), (z 0).val = b * 5000 + (y 0).val → (z 1).val = (y 1).val → u y = U z)
    (hw : ∀ y : S256x128.Idx, w y = W y)
    (j : S5000x128.Idx) (i : S100000x128.Idx) (hi0 : (i 0).val = b * 5000 + (j 0).val) (hi1 : (i 1).val = (j 1).val) :
    k0_pay1 (F := Ideal) u x w j = support X U W i := by
  obtain ⟨p, q, rfl⟩ : ∃ (p : Fin 5000) (q : Fin 128), j = ix2 p q := ⟨j 0, j 1, eq_ix2 j⟩
  rw [pay_apply]
  unfold support
  refine Finset.sum_congr rfl fun k _ => ?_
  have hq : (i 1) = q := Fin.ext hi1
  rw [hu (ix2 p k) (ix2 (i 0) k) hi0 rfl, hx (ix2 p k) (ix2 (i 0) k) hi0 rfl, hw, hq]

/-- What point t writes back is block t of the projection of the arrays as the region finds them. -/
theorem flushed_eq (c : Dev nD) (t : Fin cfg0.N) :
    (dats m 0 c).flushed 3 t = ((cfg0.win 3).blk t).view.read (Elt Ideal)
      (support (V m c main_arg0) (V m c main_arg5) (V m c main_arg1)) := by
  show (cfg0.win 3).cut (grid0.coords t) ((dats m 0 c).after 3 t) = _
  rw [after0_3]
  unfold out0_3
  rw [View.canon_unit_zero zero_offsets]
  simp only [View.ld_unit_zero (S := S5000x256) zero_offsets, View.ld_unit_zero (S := S256x128) zero_offsets]
  obtain ⟨-, -, -, -, -, -, e0, e1⟩ := index_facts t
  funext j
  rw [View.read_apply]
  refine block_entry (V m c main_arg0) (V m c main_arg5) (V m c main_arg1) (iblk m c 1 t) (iblk m c 0 t) (iblk m c 2 t) t.val
    (input_block m c t) (draws_block m c t) (weight_block m c t) j _ ?_ ?_
  · show win0_3.index t (0 : Fin 2) * 5000 + 1 * (j 0).val = t.val * 5000 + (j 0).val; rw [e0]; omega
  · show win0_3.index t (1 : Fin 2) * 128 + 1 * (j 1).val = (j 1).val; rw [e1]; omega

/-- An index of the result array is in point t's block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- Row r of the result is written back by point r / 5000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_block]
  obtain ⟨-, -, -, -, -, -, e0, e1⟩ := index_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- The result array after the region: the projection of the argument arrays. -/
theorem final (c : Dev nD) :
    (dats m 0 c).arrAt 3 cfg0.N = support (V m c main_arg0) (V m c main_arg5) (V m c main_arg1) :=
  (dats m 0 c).arrAt_eq_of_cover 3 (support (V m c main_arg0) (V m c main_arg5) (V m c main_arg1))
    (fun t _ => flushed_eq m c t) covered

end Cert.KernelIdeal.Rows

end
-- ==== Proof.SparseTail.lean ====
/-
  The kernel's whole run: the projection, then the sparse tail.

  After the region the program gathers the rows of the projection named by the column indices (negative indices
  shifted by 100000 first), scales each gathered row by its edge value, and adds the scaled rows into a zero array at
  the rows named by the row indices. That tail is one function of the projection and the three edge arrays; it is
  never opened here. The region leaves the projection in its result array (the row blocks tile it), the edge arrays
  are no window's array and pass through the region unchanged, so the program's result is the tail of
  support x u w and the edge arrays, with every argument array as it was.
-/
import proofs.«150217_j31301721653273_1_alg».proof.Proof.Gen.KernelIdeal.Frame
import proofs.«150217_j31301721653273_1_alg».proof.Proof.RowBlocks
import Idealize.ShloMosaic.Lib.StableHlo.Run
import Idealize.ShloMosaic.Lib.Pipeline.Value

noncomputable section

namespace Cert.KernelIdeal.Sparse

open Cert.KernelIdeal Cert.KernelIdeal.Gen Cert.KernelIdeal.Rows Cert.Support
open Idealize.ShloMosaic Idealize.ShloMosaic.TcCoe Idealize.SL.Sem Idealize.ShloMosaic.StableHlo

/-- The sparse tail: gather the projection's rows at the (wrapped) column indices, scale by the edge values, and
    scatter-add into a zero array at the row indices. -/
def tail (s : (⟨S100000x128, .f32⟩ : BufTy).Contents (Elt Ideal)) (rows cols : (⟨S1600000, .i32⟩ : BufTy).Contents (Elt Ideal))
    (vals : (⟨S1600000, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 rows)
    (mulf (F := Ideal)
      (Host.gather gather_S100000x128_S1600000x1_S1600000x128_1_0_n_n_0_1_1128 s
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols)))
      (broadcastInDim S1600000x128 ![0, 1] bcast_S1600000x1_S1600000x128_0_1
        (broadcastInDim S1600000x1 ![0] bcast_S1600000_S1600000x1_0 vals)))

variable (m : (ℓ : Loc nD τ sig) → Buf (Elt Ideal) ℓ) (ρ : Dev nD → PrngReg)

/-- What the lines after the region leave in the program's result: the tail of the projection and the edge arrays. -/
theorem tail_result (c : Dev nD) :
    Pipeline.afterTail₀ cfgs (dats m) 0 (V0 m) [hostOps1] c main_v13
      = tail (support (m ((c.tc : Thread nD τ).loc main_arg0)) (m ((c.tc : Thread nD τ).loc main_arg5)) (m ((c.tc : Thread nD τ).loc main_arg1)))
          (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v13) = _
  after_results
  have e0 : Pipeline.withArrays (cfgs 0).spec c (V0 m c) (fun w => (dats m 0 c).arrAt w (cfgs 0).N) (Proc.devRef .tc main_v0)
      = support (m ((c.tc : Thread nD τ).loc main_arg0)) (m ((c.tc : Thread nD τ).loc main_arg5)) (m ((c.tc : Thread nD τ).loc main_arg1)) :=
    (Pipeline.withArrays_arr spec0 launch0.win.arr_inj c (V0 m c) (fun w => (dats m 0 c).arrAt w (cfgs 0).N) 3).trans (final m c)
  have e2 : Pipeline.withArrays (cfgs 0).spec c (V0 m c) (fun w => (dats m 0 c).arrAt w (cfgs 0).N) (Proc.devRef .tc main_arg2)
      = m ((c.tc : Thread nD τ).loc main_arg2) :=
    Pipeline.withArrays_of_ne _ c (V0 m c) _ main_arg2 (by exact (by decide : ∀ w, Pipeline.arrRef spec0 w ≠ main_arg2))
  have e3 : Pipeline.withArrays (cfgs 0).spec c (V0 m c) (fun w => (dats m 0 c).arrAt w (cfgs 0).N) (Proc.devRef .tc main_arg3)
      = m ((c.tc : Thread nD τ).loc main_arg3) :=
    Pipeline.withArrays_of_ne _ c (V0 m c) _ main_arg3 (by exact (by decide : ∀ w, Pipeline.arrRef spec0 w ≠ main_arg3))
  have e4 : Pipeline.withArrays (cfgs 0).spec c (V0 m c) (fun w => (dats m 0 c).arrAt w (cfgs 0).N) (Proc.devRef .tc main_arg4)
      = m ((c.tc : Thread nD τ).loc main_arg4) :=
    Pipeline.withArrays_of_ne _ c (V0 m c) _ main_arg4 (by exact (by decide : ∀ w, Pipeline.arrRef spec0 w ≠ main_arg4))
  rw [e0, e2, e3, e4]
  rfl

/-- The kernel's run, read: the result at the tail of the projection, every argument array unchanged. -/
theorem run : θ_run defs (onTc (τ := τ) (main (F := Ideal))) ⟨m, fun _ => 0, ρ⟩ fun r => ∀ c : Dev nD,
      r.2.mem ((c.tc : Thread nD τ).loc main_v13)
        = tail (support (m ((c.tc : Thread nD τ).loc main_arg0)) (m ((c.tc : Thread nD τ).loc main_arg5)) (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v13 (Pipeline.mem_restRefs_of main_v13 (by decide) (by decide))).trans (tail_result m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 1).trans (((dats m 0 c).arrAt_in 1 rfl _).trans ((A_eq m c 1).trans (V_main_arg5 m c)))⟩)
    (run_main m ρ)

end Cert.KernelIdeal.Sparse

end
-- ==== Proof.KeepScale.lean ====
/-
  The one arithmetic fact that joins the two programs. The reference divides each kept entry by the f32 word
  0x3F4CCCCD, which read exactly is the rational 13421773 / 2^24 (the nearest f32 to 4/5); the kernel multiplies by a
  constant that denotes the reciprocal of that rational, 2^24 / 13421773. On the extended reals dividing by a nonzero
  real is multiplying by its reciprocal, at every extended real (infinities included), so no finiteness is needed.
-/
import Idealize.ShloMosaic.PureOps.Ideal

noncomputable section

namespace Cert.KeepScale

open Idealize.ShloMosaic

/-- The divisor's word, read exactly: 13421773 / 16777216. -/
theorem keep_word : Ideal.ofBits .f32 0x3F4CCCCD#32 = ((13421773 / 16777216 : ℝ) : EReal) := by
  simp [Ideal.ofBits, Ideal.ieee, -EReal.coe_mul]; norm_num

/-- Dividing by that word is multiplying by 16777216 / 13421773, for every extended real. -/
theorem div_keep (x : EReal) :
    Ideal.div x (Ideal.ofBits .f32 0x3F4CCCCD#32) = x * ((16777216 / 13421773 : ℝ) : EReal) := by
  rw [keep_word, Ideal.div_coe (by norm_num : (13421773 / 16777216 : ℝ) ≠ 0)]
  congr 2
  norm_num

end Cert.KeepScale

end
-- ==== Proof.RefProjection.lean ====
/-
  The reference's dense stage is the same projection.

  The reference compares the draws with the same threshold word, divides the input by the word 0x3F4CCCCD, selects
  against a zero splat and contracts with the weight. Entry (r, c) of its product is the sum over k of the selected
  entry (r, k) times w (k, c); dividing by that word is multiplying by 2^24 / 13421773 at every extended real, so the
  selected entry is kept (u r k) (x r k) and the stage is support x u w.
-/
import proofs.«150217_j31301721653273_1_alg».proof.Proof.Gen.ReferenceIdeal.Read
import proofs.«150217_j31301721653273_1_alg».proof.Proof.Support
import proofs.«150217_j31301721653273_1_alg».proof.Proof.KeepScale

noncomputable section

namespace Cert.ReferenceIdeal.Dense

open Cert.ReferenceIdeal Cert.ReferenceIdeal.Gen Cert.ReferenceIdeal.Read Cert.Support Cert.KeepScale
open Idealize.ShloMosaic Idealize.ShloMosaic.ValueIdx

/-- The reference's product, entry by entry, is the projection of the dropped-out input. -/
theorem dense_eq (x u : (⟨S100000x256, .f32⟩ : BufTy).Contents (Elt Ideal)) (w : (⟨S256x128, .f32⟩ : BufTy).Contents (Elt Ideal)) :
    val_main_v5 (F := Ideal) x w u = support x u w := by
  funext i
  obtain ⟨r, c, rfl⟩ : ∃ (r : Fin 100000) (c : Fin 128), i = ix2 r c := ⟨i 0, i 1, eq_ix2 i⟩
  rw [val_main_v5_apply, support_apply]
  refine Finset.sum_congr rfl fun k _ => ?_
  have el : lidx_main_v5 (ix2 r c) k = ix2 r k :=
    funext fun a => Fin.ext (by match a with | ⟨0, _⟩ => rfl | ⟨1, _⟩ => rfl)
  have er : ridx_main_v5 (ix2 r c) k = ix2 k c :=
    funext fun a => Fin.ext (by match a with | ⟨0, _⟩ => rfl | ⟨1, _⟩ => rfl)
  rw [el, er, val_main_v4_apply, val_main_v1_apply, val_main_v3_apply, val_main_v0_apply, val_main_cst_apply,
    val_main_v2_apply, val_main_cst_0_apply, val_main_call0_v1_apply, val_main_call0_v0_apply, val_main_cst_1_apply]
  simp only [kept, Ideal.hostDivf_def, Ideal.ofBits_def, div_keep]

end Cert.ReferenceIdeal.Dense

end
-- ==== Proof.lean ====
/-
  Graph convolution with dropout: a tiled dropout-and-project kernel followed by a sparse gather / scale / scatter-add,
  against the same computation written with whole-array operations.

  Both programs first form the projection support x u w of the dropped-out input onto the weight's columns, then apply
  one and the same sparse tail to it and to the edge arrays. The only difference before the tail is how a kept entry
  is rescaled: the reference divides by the f32 word nearest 4/5, which is the rational 13421773 / 2^24; the kernel
  multiplies by a constant that denotes its reciprocal 2^24 / 13421773. On the extended reals these agree at every
  value, so the two projections are one function, entry by entry, with no finiteness needed; the kernel's row blocks
  tile the projection's rows; and equal projections give equal tails.
-/
import proofs.«150217_j31301721653273_1_alg».proof.Defs
import proofs.«150217_j31301721653273_1_alg».proof.Proof.Gen.Kernel
import proofs.«150217_j31301721653273_1_alg».proof.Proof.Gen.Kernel.Frame
import proofs.«150217_j31301721653273_1_alg».proof.Proof.Gen.KernelIdeal
import proofs.«150217_j31301721653273_1_alg».proof.Proof.Gen.KernelIdeal.Frame
import proofs.«150217_j31301721653273_1_alg».proof.Proof.Gen.ReferenceIdeal
import proofs.«150217_j31301721653273_1_alg».proof.Proof.Gen.ReferenceIdeal.Run
import proofs.«150217_j31301721653273_1_alg».proof.Proof.Gen.ReferenceIdeal.Read
import proofs.«150217_j31301721653273_1_alg».proof.Proof.Gen.Pre_finite_inputs
import proofs.«150217_j31301721653273_1_alg».proof.Proof.SparseTail
import proofs.«150217_j31301721653273_1_alg».proof.Proof.RefProjection
import Idealize.ShloMosaic.Adequacy
import Idealize.ShloMosaic.Init

noncomputable section

namespace Cert.Proof

open Idealize.ShloMosaic Idealize.ShloMosaic.TcCoe Idealize.SL.Sem Cert.Support

/-- The reference's result is the sparse tail of the same projection: its last stages are the tail's operations,
    applied to its dense stage, which is support x u w. -/
theorem reference_result (x u : (⟨Cert.ReferenceIdeal.S100000x256, .f32⟩ : BufTy).Contents (Elt Ideal))
    (w : (⟨Cert.ReferenceIdeal.S256x128, .f32⟩ : BufTy).Contents (Elt Ideal))
    (rows cols : (⟨Cert.ReferenceIdeal.S1600000, .i32⟩ : BufTy).Contents (Elt Ideal))
    (vals : (⟨Cert.ReferenceIdeal.S1600000, .f32⟩ : BufTy).Contents (Elt Ideal)) :
    Cert.ReferenceIdeal.Read.val_main_v18 (F := Ideal) x w rows cols vals u
      = Cert.KernelIdeal.Sparse.tail (support x u w) rows cols vals := by
  unfold Cert.ReferenceIdeal.Read.val_main_v18 Cert.ReferenceIdeal.Read.val_main_v15 Cert.ReferenceIdeal.Read.val_main_v12
  rw [Cert.ReferenceIdeal.Dense.dense_eq]
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The one rewritten constant: the table gives the rescaling constant the value 2^24 / 13421773. -/
theorem preserves : Cert.preserves_Kernel_KernelIdeal :=
  IdealRules.named_const.statement Cert.KernelIdeal.κ "inv_keep" .f32 0x3FA00000#32 ((16777216 / 13421773 : ℝ) : EReal) rfl

/-- Both programs end with the tail of support x u w and the edge arrays, from arguments that agree. -/
theorem algebraic : Cert.algebraic_KernelIdeal_ReferenceIdeal := by
  intro m ρ m' ρ' _ hagree
  refine ⟨fun c => Cert.KernelIdeal.Sparse.tail
      (support (m ((c.tc : Thread Cert.KernelIdeal.nD Cert.KernelIdeal.τ).loc Cert.KernelIdeal.main_arg0))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Sparse.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, reference_result, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
